-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S16x1024x1024 : Shape := ⟨3, ![16, 1024, 1024]⟩
abbrev S16x1024 : Shape := ⟨2, ![16, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S16x1024 : S_.BroadcastsInDim S16x1024 (![] : Fin 0 → Fin S16x1024.rank)
  reducesTo_S16x1024_S_d0_1 : S16x1024.ReducesTo [0, 1] S_

variable [Facts]

def fn {F : FTy → Type} [FloatOps F] (main_arg0 : FVec F S4096x1024 .f32) (main_arg1 : FVec F S16x1024x1024 .f32) (main_arg2 : FVec F S16x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S16x1024 .f32 := Host.absf main_arg2
  let main_cst_2 : FVec F S_ .f32 := constant S_ .f32 0x7F800000#32
  let main_v10 : FVec F S16x1024 .f32 := broadcastInDim S16x1024 ![] bcast_S_S16x1024 main_cst_2
  let main_v11 : IVec S16x1024 1 := cmpf .olt main_v9 main_v10
  let main_c_3 : IVec S_ 1 := constantI S_ 1 1#1
  let main_v12 : IVec S_ 1 := (fun x v => Host.reduce IntOp.andi x v reducesTo_S16x1024_S_d0_1 h_S_) main_v11 main_c_3
  let main_v13 : IVec S_ 1 := andi main_v8 main_v12
  main_v13
-- ==== Kernel.lean ====
abbrev S4096x1024 : Shape := ⟨2, ![4096, 1024]⟩
abbrev S16x1024x1024 : Shape := ⟨3, ![16, 1024, 1024]⟩
abbrev S16x1024 : Shape := ⟨2, ![16, 1024]⟩
abbrev S16384x1024 : Shape := ⟨2, ![16384, 1024]⟩
abbrev S1x16384 : Shape := ⟨2, ![1, 16384]⟩
abbrev S4096x16384 : Shape := ⟨2, ![4096, 16384]⟩
abbrev S512x1024 : Shape := ⟨2, ![512, 1024]⟩
abbrev S2048x1024 : Shape := ⟨2, ![2048, 1024]⟩
abbrev S1x2048 : Shape := ⟨2, ![1, 2048]⟩
abbrev S512x2048 : Shape := ⟨2, ![512, 2048]⟩
abbrev S4096x16x1024 : Shape := ⟨3, ![4096, 16, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S16x1024x1024, .f32⟩
  | .hbm, ⟨2, _⟩ => ⟨S16x1024, .f32⟩
  | .hbm, ⟨3, _⟩ => ⟨S16384x1024, .f32⟩
  | .hbm, ⟨4, _⟩ => ⟨S1x16384, .f32⟩
  | .hbm, ⟨5, _⟩ => ⟨S4096x16384, .f32⟩
  | .hbm, ⟨6, _⟩ => ⟨S4096x16x1024, .f32⟩
  | .local _ .vmem, ⟨0, _⟩ => ⟨S512x1024, .f32⟩
  | .local _ .vmem, ⟨1, _⟩ => ⟨S512x1024, .f32⟩
  | .local _ .vmem, ⟨2, _⟩ => ⟨S2048x1024, .f32⟩
  | .local _ .vmem, ⟨3, _⟩ => ⟨S2048x1024, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S16x1024x1024_S16384x1024 : S16x1024x1024.ShapeCasts S16384x1024
  shapeCasts_S16x1024_S1x16384 : S16x1024.ShapeCasts S1x16384
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  packedbf16_S2048x1024_S2048x1024_0_0 : (Rect.unit (s := S2048x1024) ![0, 0] S2048x1024.size inb_S2048x1024_S2048x1024_0_0).PackedRows (EltTy.packing .bf16)
  inb_S512x1024_S512x1024_0_0 : ∀ a, (![0, 0] : Fin 2 → Nat) a + S512x1024.size a ≤ S512x1024.size a
  h_S512x1024 : 0 < S512x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  shapeCasts_S4096x16384_S4096x16x1024 : S4096x16384.ShapeCasts S4096x16x1024
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x1024.size a
  hwx0_1 : ∀ i : grid0.Coords, EltTy.bits .f32 = 32 ∨ (Rect.block (s := S16384x1024) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x16384.size a
  hwx0_3 : ∀ i : grid0.Coords, EltTy.bits .f32 = 32 ∨ (Rect.block (s := S4096x16384) S512x2048.size (cc0_transform_3 i) (hinb0_3 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S16x1024x1024 : Shape := ⟨3, ![16, 1024, 1024]⟩
abbrev S16x1024 : Shape := ⟨2, ![16, 1024]⟩
abbrev S4096x16x1024 : Shape := ⟨3, ![4096, 16, 1024]⟩
abbrev S1x16x1024 : Shape := ⟨3, ![1, 16, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16x1024x1024, .f32⟩
  | .hbm, ⟨2, _⟩ => ⟨S16x1024, .f32⟩
  | .hbm, ⟨3, _⟩ => ⟨S4096x16x1024, .f32⟩
  | .hbm, ⟨4, _⟩ => ⟨S1x16x1024, .f32⟩
  | .hbm, ⟨5, _⟩ => ⟨S4096x16x1024, .f32⟩
  | .hbm, ⟨6, _⟩ => ⟨S4096x16x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S16x1024_S1x16x1024_1_2 : S16x1024.BroadcastsInDim S1x16x1024 (![1, 2] : Fin 2 → Fin S1x16x1024.rank)
  bcast_S1x16x1024_S4096x16x1024_0_1_2 : S1x16x1024.BroadcastsInDim S4096x16x1024 (![0, 1, 2] : Fin 3 → Fin S4096x16x1024.rank)
  dot_S4096x1024_S16x1024x1024_S4096x16x1024_1_2_0_01_n_n_wf : DotDims.WF S4096x1024 S16x1024x1024 S4096x16x1024 [1] [2] [0] [0, 1] [] []

variable [Facts₀]

def dot_S4096x1024_S16x1024x1024_S4096x16x1024_1_2_0_01_n_n : DotDims S4096x1024 S16x1024x1024 S4096x16x1024 where
  lhsContracting := [1]
  rhsContracting := [2]
  lhsNonContracting := [0]
  rhsNonContracting := [0, 1]
  lhsBatch := []
  rhsBatch := []
  wf := dot_S4096x1024_S16x1024x1024_S4096x16x1024_1_2_0_01_n_n_wf

class Facts : Prop extends Facts₀ where

variable [Facts]
-- ==== Proof.Spec.lean ====
/-
  The specification: a grouped linear layer as one function of its three argument arrays, over the extended reals.

    out[r, g, o] = Σ_k x[r, k] · W[g, o, k] + b[g, o]        (r < 4096, g < 16, o < 1024, k < 1024)

  and the same layer with the group axis folded into the column axis (column c = 1024·g + o):

    out2[r, c] = Σ_k x[r, k] · W2[c, k] + b2[0, c]            (c < 16384)

  Every index is built from coordinates of literal extents.
-/
import Idealize.ShloMosaic.PureOps.Ideal
import Idealize.ShloMosaic.Lib.ValueIdx

noncomputable section

namespace Cert.GroupLinear

open Idealize.ShloMosaic Idealize.ShloMosaic.ValueIdx
open scoped BigOperators

/-- The input rows, [4096, 1024]. -/
abbrev SX : Shape := ⟨2, ![4096, 1024]⟩
/-- The stacked weights, [16, 1024, 1024]: group, output feature, input feature. -/
abbrev SW : Shape := ⟨3, ![16, 1024, 1024]⟩
/-- The stacked biases, [16, 1024]. -/
abbrev SB : Shape := ⟨2, ![16, 1024]⟩
/-- The result, [4096, 16, 1024]. -/
abbrev SO : Shape := ⟨3, ![4096, 16, 1024]⟩
/-- The weights with the group axis folded into the rows, [16384, 1024]. -/
abbrev SW2 : Shape := ⟨2, ![16384, 1024]⟩
/-- The biases as one row, [1, 16384]. -/
abbrev SB2 : Shape := ⟨2, ![1, 16384]⟩
/-- The result with the group axis folded into the columns, [4096, 16384]. -/
abbrev SO2 : Shape := ⟨2, ![4096, 16384]⟩

/-- The layer at row `r`, group `g`, output feature `o`: the inner product of row `r` of `x` with row `(g, o)` of
    `W`, plus the bias `b[g, o]`. -/
def groupLinearAt (x : SX.Idx → EReal) (W : SW.Idx → EReal) (b : SB.Idx → EReal)
    (r : Fin 4096) (g : Fin 16) (o : Fin 1024) : EReal :=
  (∑ k : Fin 1024, x (ix2 r k) * W (ix3 g o k)) + b (ix2 g o)

/-- The layer as an array: `groupLinearAt` at the index's three coordinates. -/
def groupLinear (x : SX.Idx → EReal) (W : SW.Idx → EReal) (b : SB.Idx → EReal) : SO.Idx → EReal :=
  fun i => groupLinearAt x W b ⟨(i 0).val, (i 0).isLt⟩ ⟨(i 1).val, (i 1).isLt⟩ ⟨(i 2).val, (i 2).isLt⟩

theorem groupLinear_ix3 (x : SX.Idx → EReal) (W : SW.Idx → EReal) (b : SB.Idx → EReal)
    (r : Fin 4096) (g : Fin 16) (o : Fin 1024) :
    groupLinear x W b (ix3 r g o) = groupLinearAt x W b r g o := rfl

/-- The folded layer at row `r`, column `c`: the inner product of row `r` of `x` with row `c` of `W2`, plus `b2[0, c]`. -/
def flatLinearAt (x : SX.Idx → EReal) (W2 : SW2.Idx → EReal) (b2 : SB2.Idx → EReal)
    (r : Fin 4096) (c : Fin 16384) : EReal :=
  (∑ k : Fin 1024, x (ix2 r k) * W2 (ix2 c k)) + b2 (ix2 (0 : Fin 1) c)

/-- The folded layer as an array. -/
def flatLinear (x : SX.Idx → EReal) (W2 : SW2.Idx → EReal) (b2 : SB2.Idx → EReal) : SO2.Idx → EReal :=
  fun j => flatLinearAt x W2 b2 ⟨(j 0).val, (j 0).isLt⟩ ⟨(j 1).val, (j 1).isLt⟩

theorem flatLinear_ix2 (x : SX.Idx → EReal) (W2 : SW2.Idx → EReal) (b2 : SB2.Idx → EReal)
    (r : Fin 4096) (c : Fin 16384) :
    flatLinear x W2 b2 (ix2 r c) = flatLinearAt x W2 b2 r c := rfl

end Cert.GroupLinear

end
-- ==== Proof.Pieces.lean ====
/-
  What the body leaves, case by case, as values of the blocks it loads.

  At a grid point whose inner coordinate is zero (case A) the body first narrows the weight block `w` to bf16 and keeps
  it in the scratch, then reads the scratch back and stores x·wᵀ + bias: the scratch ends at `pay1 w` and the output
  block at `pay2 x (pay1 w) bias`. At every other point (case B) the scratch is left as the point before left it, `s`,
  and the output block is `pay2 x s bias`. Each buffer is written by one store over its whole extent, so what it
  holds is that store's payload, and a whole-extent load of a buffer reads its contents.
-/
import proofs.«131578_j36971078484018_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The offsets of every access of the body: the origin. -/
theorem hz : (![0, 0] : Fin 2 → Nat) = fun _ => 0 := funext fun a => by fin_cases a <;> rfl

/-- Case A, the carried scratch: the weight block narrowed to bf16. -/
theorem scratch_A (c : Dev nD) (i : grid0.Coords) (arg2 : Memref sig .tc .vmem S512x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S2048x1024 .bf16) (harg6 : arg6.IsWhole) (hc0 : cond0_0 i)
    (x0 : Vec F S512x1024 .f32) (x1 : Vec F S2048x1024 .f32) (x2 : Vec F S1x2048 .f32) :
    sout0_A_0 c i arg2 harg2 arg3 harg3 arg4 harg4 arg5 harg5 arg6 harg6 hc0 x0 x1 x2 = k0_pay1 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero hz]
  simp only [View.readAt_eq_ld, harg3.read_unread, View.ld_unit_zero (S := S2048x1024) hz]

/-- Case A, the output block: the product of the x block with the narrowed weight block just stored (read back from
    the scratch), plus the bias row. -/
theorem out_A (c : Dev nD) (i : grid0.Coords) (arg2 : Memref sig .tc .vmem S512x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S2048x1024 .bf16) (harg6 : arg6.IsWhole) (hc0 : cond0_0 i)
    (x0 : Vec F S512x1024 .f32) (x1 : Vec F S2048x1024 .f32) (x2 : Vec F S1x2048 .f32) :
    out0_A_3 c i arg2 harg2 arg3 harg3 arg4 harg4 arg5 harg5 arg6 harg6 hc0 x0 x1 x2 = k0_pay2 x0 (k0_pay1 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz, View.readCov_unit_zero (S := S2048x1024) _ hz]
  simp only [View.readAt_eq_ld, harg2.read_unread, harg3.read_unread, harg4.read_unread,
    View.ld_unit_zero (S := S512x1024) hz, View.ld_unit_zero (S := S2048x1024) hz, View.ld_unit_zero (S := S1x2048) hz]

/-- Case B, the output block: the product of the x block with whatever the scratch holds, plus the bias row. -/
theorem out_B (c : Dev nD) (i : grid0.Coords) (arg2 : Memref sig .tc .vmem S512x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S2048x1024 .bf16) (harg6 : arg6.IsWhole) (hc0 : ¬cond0_0 i)
    (x0 : Vec F S512x1024 .f32) (x1 : Vec F S2048x1024 .f32) (x2 : Vec F S1x2048 .f32) (xs0 : Vec F S2048x1024 .bf16) :
    out0_B_3 c i arg2 harg2 arg3 harg3 arg4 harg4 arg5 harg5 arg6 harg6 hc0 x0 x1 x2 xs0 = k0_pay2 x0 xs0 x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  rw [View.canon_unit_zero hz]
  simp only [View.readAt_eq_ld, harg2.read_unread, harg4.read_unread, harg6.read_unread,
    View.ld_unit_zero (S := S512x1024) hz, View.ld_unit_zero (S := S2048x1024) hz, View.ld_unit_zero (S := S1x2048) hz]

end Cert.KernelIdeal.Pieces

end
-- ==== Proof.Blocks.lean ====
/-
  Where each block sits in its array. The grid is 8 × 8, run in row-major order: point `t` has outer coordinate
  `t / 8` (which block of 2048 folded weight rows, bias columns and output columns) and inner coordinate `t % 8`
  (which block of 512 rows of x and of the output). So

    x block at t      [p, k]  =  x  [512·(t % 8) + p, k]
    weight block at t [q, k]  =  W2 [2048·(t / 8) + q, k]
    bias block at t   [0, q]  =  b2 [0, 2048·(t / 8) + q]

  and the output block at t covers rows 512·(t % 8) + p and columns 2048·(t / 8) + q. The printed index maps are
  decided once over the 64 grid points; a block's coordinate in the array is always (block index) × (block size) +
  (coordinate inside the block).
-/
import proofs.«131578_j36971078484018_2_alg».proof.Proof.Gen.KernelIdeal.Frame
import Idealize.ShloMosaic.Lib.Pipeline.Value
import Idealize.ShloMosaic.Lib.Tactic
import Idealize.ShloMosaic.Lib.ValueIdx
set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen

open Idealize.ShloMosaic.ValueIdx

variable {F : FTy → Type} [FloatOps F]
variable (m : (ℓ : Loc nD τ sig) → Buf (Elt F) ℓ)

/-- The array row of row `p` of the x / output block at grid position `n`. -/
abbrev xrow (n : ℕ) (p : Fin 512) : Fin 4096 := ⟨512 * (n % 8) + p.val, by omega⟩
/-- The folded row (of the weights) or column (of the bias and the output) of entry `q` of the block at grid position `n`. -/
abbrev wcol (n : ℕ) (q : Fin 2048) : Fin 16384 := ⟨2048 * (n / 8 % 8) + q.val, by omega⟩

/-- Two grid positions with the same outer coordinate address the same folded rows. -/
theorem wcol_congr {n n' : ℕ} (h : n / 8 = n' / 8) (q : Fin 2048) : wcol n q = wcol n' q :=
  Fin.ext (by show 2048 * (n / 8 % 8) + q.val = 2048 * (n' / 8 % 8) + q.val; rw [h])

/-- The four printed index maps over the grid: inner coordinate for the rows of x and of the output, outer coordinate
    for the weight rows, the bias columns and the output columns. -/
theorem idx_facts : ∀ t : Fin cfg0.N,
    win0_0.index t (0 : Fin 2) = t.val % 8 ∧ win0_0.index t (1 : Fin 2) = 0
    ∧ win0_1.index t (0 : Fin 2) = t.val / 8 % 8 ∧ win0_1.index t (1 : Fin 2) = 0
    ∧ win0_2.index t (0 : Fin 2) = 0 ∧ win0_2.index t (1 : Fin 2) = t.val / 8 % 8
    ∧ win0_3.index t (0 : Fin 2) = t.val % 8 ∧ win0_3.index t (1 : Fin 2) = t.val / 8 % 8 :=
  (by decide +kernel : ∀ t : Fin grid0.N, _)

/-- The x block at point `t`, read at (p, k). -/
theorem xblk_apply (c : Dev nD) (t : Fin cfg0.N) (p : Fin 512) (k : Fin 1024) :
    (iblk m c 0 t : Vec F S512x1024 .f32) (ix2 p k) = V m c main_arg0 (ix2 (xrow t.val p) k) := by
  obtain ⟨e0, e1, -⟩ := idx_facts t
  unfold iblk
  rw [View.read_apply]
  show V m c main_arg0 (((cfg0.win 0).blk t).view.emb (ix2 p k)) = _
  refine congrArg (V m c main_arg0) ?_
  funext a; apply Fin.ext
  match a with
  | ⟨0, _⟩ => show win0_0.index t (0 : Fin 2) * 512 + 1 * p.val = 512 * (t.val % 8) + p.val; omega
  | ⟨1, _⟩ => show win0_0.index t (1 : Fin 2) * 1024 + 1 * k.val = k.val; omega

/-- The weight block at point `t`, read at (q, k). -/
theorem wblk_apply (c : Dev nD) (t : Fin cfg0.N) (q : Fin 2048) (k : Fin 1024) :
    (iblk m c 1 t : Vec F S2048x1024 .f32) (ix2 q k) = V m c main_v0 (ix2 (wcol t.val q) k) := by
  obtain ⟨-, -, e0, e1, -⟩ := idx_facts t
  unfold iblk
  rw [View.read_apply]
  show V m c main_v0 (((cfg0.win 1).blk t).view.emb (ix2 q k)) = _
  refine congrArg (V m c main_v0) ?_
  funext a; apply Fin.ext
  match a with
  | ⟨0, _⟩ => show win0_1.index t (0 : Fin 2) * 2048 + 1 * q.val = 2048 * (t.val / 8 % 8) + q.val; omega
  | ⟨1, _⟩ => show win0_1.index t (1 : Fin 2) * 1024 + 1 * k.val = k.val; omega

/-- The bias block at point `t`, read at (0, q). -/
theorem bblk_apply (c : Dev nD) (t : Fin cfg0.N) (q : Fin 2048) :
    (iblk m c 2 t : Vec F S1x2048 .f32) (ix2 (0 : Fin 1) q) = V m c main_v1 (ix2 (0 : Fin 1) (wcol t.val q)) := by
  obtain ⟨-, -, -, -, e0, e1, -⟩ := idx_facts t
  unfold iblk
  rw [View.read_apply]
  show V m c main_v1 (((cfg0.win 2).blk t).view.emb (ix2 (0 : Fin 1) q)) = _
  refine congrArg (V m c main_v1) ?_
  funext a; apply Fin.ext
  match a with
  | ⟨0, _⟩ => show win0_2.index t (0 : Fin 2) * 1 + 1 * 0 = 0; omega
  | ⟨1, _⟩ => show win0_2.index t (1 : Fin 2) * 2048 + 1 * q.val = 2048 * (t.val / 8 % 8) + q.val; omega

end Cert.KernelIdeal.Blocks

end
-- ==== Proof.Payload.lean ====
/-
  The two payloads of the kernel body, read at an index, over the extended reals.

  The scratch's payload is the weight block itself (a re-layout to the same shape and a change of float format are
  both the identity on extended reals). The output's payload at row p, column q is

      Σ_k x0[p, k] · w[q, k] + b[0, q]          (p < 512, q < 2048, k < 1024)

  the product of the x block with the transposed weight block (both operands contracted on their last axis) into
  the zero accumulator, plus the bias row broadcast over the rows.
-/
import proofs.«131578_j36971078484018_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen
open scoped BigOperators

/-! ## The product's operand indices -/

/-- The left operand's index at output index `i` and contraction position `q` has, on its free axis 0, the output's
    row coordinate. -/
theorem lhsIdx_row (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide),
    dif_pos (show (0 : Fin S512x1024.rank) ∈ dot_S512x1024_S2048x1024_S512x2048_1_1_0_0_n_n.lhsNonContracting by decide)]
  rfl

/-- The left operand's index has, on its contracted axis 1, the contraction position's one coordinate. -/
theorem lhsIdx_contr (i : S512x2048.Idx) (q : dot_S512x1024_S2048x1024_S512x2048_1_1_0_0_n_n.contr.Idx) :
    (dot_S512x1024_S2048x1024_S512x2048_1_1_0_0_n_n.lhsIdx i q 1).val = (q ⟨0, by decide⟩).val :=
  dot_S512x1024_S2048x1024_S512x2048_1_1_0_0_n_n.lhsIdx_val_of_single rfl i q

/-- The right operand's index has, on its free axis 0, the output's column coordinate. -/
theorem rhsIdx_col (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide),
    dif_pos (show (0 : Fin S2048x1024.rank) ∈ dot_S512x1024_S2048x1024_S512x2048_1_1_0_0_n_n.rhsNonContracting by decide)]
  rfl

/-- The right operand's index has, on its contracted axis 1, the contraction position's one coordinate. -/
theorem rhsIdx_contr (i : S512x2048.Idx) (q : dot_S512x1024_S2048x1024_S512x2048_1_1_0_0_n_n.contr.Idx) :
    (dot_S512x1024_S2048x1024_S512x2048_1_1_0_0_n_n.rhsIdx i q 1).val = (q ⟨0, by decide⟩).val :=
  dot_S512x1024_S2048x1024_S512x2048_1_1_0_0_n_n.rhsIdx_val_of_single rfl i q

/-! ## The product at an index -/

/-- The product into the zero accumulator at row `p`, column `q`: the inner product of row `p` of the left operand
    with row `q` of the right operand, Σ_k l[p, k] · r[q, k]. -/
theorem matmul_zero_apply (l : FVec Ideal S512x1024 .bf16) (r : FVec Ideal S2048x1024 .bf16) (p : Fin 512) (q : Fin 2048) :
    FloatOps.matmul dot_S512x1024_S2048x1024_S512x2048_1_1_0_0_n_n none l r
        (constant (F := Ideal) S512x2048 .f32 0x00000000#32) (ix2 p q)
      = ∑ k : Fin 1024, l (ix2 p k) * r (ix2 q k) := by
  rw [Ideal.matmul_constant_zero_apply,
    ← Equiv.sum_comp (contrEquiv1 dot_S512x1024_S2048x1024_S512x2048_1_1_0_0_n_n 1024 rfl rfl).symm]
  refine Finset.sum_congr rfl fun k _ => ?_
  have hk := contrEquiv1_symm_val dot_S512x1024_S2048x1024_S512x2048_1_1_0_0_n_n 1024 rfl rfl k
  have el : dot_S512x1024_S2048x1024_S512x2048_1_1_0_0_n_n.lhsIdx (ix2 p q)
      ((contrEquiv1 dot_S512x1024_S2048x1024_S512x2048_1_1_0_0_n_n 1024 rfl rfl).symm k) = ix2 p k :=
    funext fun a => Fin.ext (by
      match a with
      | ⟨0, _⟩ => exact lhsIdx_row _ _
      | ⟨1, _⟩ => exact (lhsIdx_contr _ _).trans hk)
  have er : dot_S512x1024_S2048x1024_S512x2048_1_1_0_0_n_n.rhsIdx (ix2 p q)
      ((contrEquiv1 dot_S512x1024_S2048x1024_S512x2048_1_1_0_0_n_n 1024 rfl rfl).symm k) = ix2 q k :=
    funext fun a => Fin.ext (by
      match a with
      | ⟨0, _⟩ => exact rhsIdx_col _ _
      | ⟨1, _⟩ => exact (rhsIdx_contr _ _).trans hk)
  rw [el, er]

/-! ## The two payloads -/

/-- The scratch's payload: the weight block, re-laid to its own shape and narrowed to bf16 — over the extended reals,
    the block itself. -/
theorem pay1_apply (v : Vec Ideal S2048x1024 .f32) (j : S2048x1024.Idx) : k0_pay1 (F := Ideal) v j = v j := by
  unfold k0_pay1
  rw [shapeCast_self, shapeCast_self]
  rfl

/-- The output's payload at row p, column q of the block: the product of the x block with the TRANSPOSED weight block
    (both contracted on their last axis) into the zero accumulator, plus the bias row broadcast over the rows:
    Σ_k x0[p,k]·w[q,k] + b[0,q]. -/
theorem pay2_apply (x0 : Vec Ideal S512x1024 .f32) (w : Vec Ideal S2048x1024 .bf16) (b : Vec Ideal S1x2048 .f32)
    (p : Fin 512) (q : Fin 2048) :
    k0_pay2 (F := Ideal) x0 w b (ix2 p q)
      = (∑ k : Fin 1024, x0 (ix2 p k) * w (ix2 q k)) + b (ix2 (0 : Fin 1) q) := by
  unfold k0_pay2
  refine (addf_apply _ _ _).trans ?_
  refine congrArg₂ (· + ·) ?_ ?_
  · exact matmul_zero_apply _ _ p q
  · refine (broadcastTo_1b_ab_apply _ _ p q).trans ?_
    rw [shapeCast_self]

end Cert.KernelIdeal.Payload

end
-- ==== Proof.Point.lean ====
/-
  What the output block and the carried scratch hold after each grid point, as values of the whole arrays.

  The scratch is refreshed exactly at the points whose inner coordinate is zero, and between two such points the
  outer coordinate does not change: so after EVERY point `n` the scratch holds the block of folded weight rows of the
  point's own outer coordinate, scratch[q, k] = W2[2048·(n / 8) + q, k] — by induction on the point. The output block
  after point `t` is therefore, at (p, q), the folded layer at row 512·(t % 8) + p and column 2048·(t / 8) + q.
-/
import proofs.«131578_j36971078484018_2_alg».proof.Proof.Spec
import proofs.«131578_j36971078484018_2_alg».proof.Proof.Pieces
import proofs.«131578_j36971078484018_2_alg».proof.Proof.Blocks
import proofs.«131578_j36971078484018_2_alg».proof.Proof.Payload

set_option maxRecDepth 16384

noncomputable section

open Idealize.ShloMosaic Idealize.ShloMosaic.TcCoe Idealize.SL.Sem
open Idealize.ShloMosaic.Pipeline (Dat)

namespace Cert.KernelIdeal.Point

open Cert.KernelIdeal Cert.KernelIdeal.Gen Cert.KernelIdeal.Blocks Cert.KernelIdeal.Payload
open Idealize.ShloMosaic.ValueIdx Cert.GroupLinear
open scoped BigOperators

/-! ## Each case's contents at a point, over the point's blocks (any float instance) -/

section AnyInstance
variable {F : FTy → Type} [FloatOps F]
variable (m : (ℓ : Loc nD τ sig) → Buf (Elt F) ℓ)

set_option maxHeartbeats 1600000 in
/-- A point that refreshes the scratch leaves the point's weight block, narrowed, in it. -/
theorem scratch_at_A (c : Dev nD) (t : Fin cfg0.N) (h0 : t.val % 8 = 0) :
    (outsAt0 m c t.val t.isLt).2 = k0_pay1 (iblk m c 1 t) := by
  rw [outsAt0_A m c t h0]
  dsimp only
  exact Pieces.scratch_A c (grid0.coords t) (ms0_0 t) (hs0_0 t) (ms0_1 t) (hs0_1 t) (ms0_2 t) (hs0_2 t) (ms0_3 t) (hs0_3 t) scM0_0 (Memref.isWhole_whole cc0_scratch0) ((hcond0_0 t).mpr h0) (iblk m c 0 t) (iblk m c 1 t) (iblk m c 2 t)

/-- Any other point leaves the scratch as the point before left it. -/
theorem scratch_at_B (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

set_option maxHeartbeats 1600000 in
/-- A point that refreshes the scratch stores the product with the weight block it has just narrowed. -/
theorem out_at_A (c : Dev nD) (t : Fin cfg0.N) (h0 : t.val % 8 = 0) :
    (outsAt0 m c t.val t.isLt).1 = k0_pay2 (iblk m c 0 t) (k0_pay1 (iblk m c 1 t)) (iblk m c 2 t) := by
  rw [outsAt0_A m c t h0]
  dsimp only
  exact Pieces.out_A c (grid0.coords t) (ms0_0 t) (hs0_0 t) (ms0_1 t) (hs0_1 t) (ms0_2 t) (hs0_2 t) (ms0_3 t) (hs0_3 t) scM0_0 (Memref.isWhole_whole cc0_scratch0) ((hcond0_0 t).mpr h0) (iblk m c 0 t) (iblk m c 1 t) (iblk m c 2 t)

set_option maxHeartbeats 1600000 in
/-- Any other point stores the product with what the point before left in the scratch. -/
theorem out_at_B (c : Dev nD) (t : Fin cfg0.N) (h0 : ¬t.val % 8 = 0) :
    (outsAt0 m c t.val t.isLt).1
      = k0_pay2 (iblk m c 0 t) ((outsAt0 m c (t.val - 1) (Nat.lt_of_le_of_lt (Nat.sub_le _ _) t.isLt)).2) (iblk m c 2 t) := by
  rw [outsAt0_B m c t h0]
  dsimp only
  exact Pieces.out_B c (grid0.coords t) (ms0_0 t) (hs0_0 t) (ms0_1 t) (hs0_1 t) (ms0_2 t) (hs0_2 t) (ms0_3 t) (hs0_3 t) scM0_0 (Memref.isWhole_whole cc0_scratch0) (fun h => h0 ((hcond0_0 t).mp h)) (iblk m c 0 t) (iblk m c 1 t) (iblk m c 2 t)
    ((outsAt0 m c (t.val - 1) (Nat.lt_of_le_of_lt (Nat.sub_le _ _) t.isLt)).2)

end AnyInstance

/-! ## The same over the extended reals, as values of the whole arrays -/

variable (m : (ℓ : Loc nD τ sig) → Buf (Elt Ideal) ℓ)

/-- The input rows as the region finds them. -/
abbrev X (c : Dev nD) : SX.Idx → EReal := V m c main_arg0
/-- The folded weights as the region finds them. -/
abbrev W2 (c : Dev nD) : SW2.Idx → EReal := V m c main_v0
/-- The bias row as the region finds it. -/
abbrev B2 (c : Dev nD) : SB2.Idx → EReal := V m c main_v1

/-- THE SCRATCH after point `n`: the block of folded weight rows of the point's outer coordinate. -/
theorem scratch_eq (c : Dev nD) : ∀ (n : ℕ) (h : n < cfg0.N) (q : Fin 2048) (k : Fin 1024),
    (outsAt0 m c n h).2 (ix2 q k) = W2 m c (ix2 (wcol n q) k) := by
  intro n
  induction n with
  | zero =>
    intro h q k
    refine (congrFun (scratch_at_A m c ⟨0, h⟩ rfl) (ix2 q k)).trans ?_
    refine (pay1_apply (iblk m c 1 ⟨0, h⟩) (ix2 q k)).trans ?_
    exact wblk_apply m c ⟨0, h⟩ q k
  | succ n ih =>
    intro h q k
    by_cases h0 : (n + 1) % 8 = 0
    · refine (congrFun (scratch_at_A m c ⟨n + 1, h⟩ h0) (ix2 q k)).trans ?_
      refine (pay1_apply (iblk m c 1 ⟨n + 1, h⟩) (ix2 q k)).trans ?_
      exact wblk_apply m c ⟨n + 1, h⟩ q k
    · refine (congrFun (scratch_at_B m c ⟨n + 1, h⟩ h0) (ix2 q k)).trans ?_
      show (outsAt0 m c n _).2 (ix2 q k) = _
      refine (ih _ q k).trans ?_
      rw [wcol_congr (show n / 8 = (n + 1) / 8 by omega) q]

/-- THE OUTPUT BLOCK after point `t`, at (p, q): the folded layer at the block's row and column in the array. -/
theorem out_eq (c : Dev nD) (t : Fin cfg0.N) (p : Fin 512) (q : Fin 2048) :
    (outsAt0 m c t.val t.isLt).1 (ix2 p q)
      = flatLinearAt (X m c) (W2 m c) (B2 m c) (xrow t.val p) (wcol t.val q) := by
  unfold flatLinearAt
  by_cases h0 : t.val % 8 = 0
  · refine (congrFun (out_at_A m c t h0) (ix2 p q)).trans ?_
    refine (pay2_apply (iblk m c 0 t) (k0_pay1 (iblk m c 1 t)) (iblk m c 2 t) p q).trans ?_
    refine congrArg₂ (· + ·) (Finset.sum_congr rfl fun k _ => ?_) (bblk_apply m c t q)
    refine congrArg₂ (· * ·) (xblk_apply m c t p k) ?_
    exact (pay1_apply (iblk m c 1 t) (ix2 q k)).trans (wblk_apply m c t q k)
  · refine (congrFun (out_at_B m c t h0) (ix2 p q)).trans ?_
    refine (pay2_apply (iblk m c 0 t) _ (iblk m c 2 t) p q).trans ?_
    refine congrArg₂ (· + ·) (Finset.sum_congr rfl fun k _ => ?_) (bblk_apply m c t q)
    refine congrArg₂ (· * ·) (xblk_apply m c t p k) ?_
    refine (scratch_eq m c (t.val - 1) _ q k).trans ?_
    rw [wcol_congr (show (t.val - 1) / 8 = t.val / 8 by omega) q]

end Cert.KernelIdeal.Point

end
-- ==== Proof.Unfold.lean ====
/-
  Folding the group axis into the columns, and unfolding it again.

  A [16, 1024, 1024] array re-laid row-major as [16384, 1024] puts entry (g, o, k) at (1024·g + o, k); a [16, 1024]
  array re-laid as [1, 16384] puts entry (g, o) at (0, 1024·g + o); a [4096, 16384] array re-laid as [4096, 16, 1024]
  reads, at (r, g, o), its entry (r, 1024·g + o). Each is one comparison of row-major positions. Together they say: the
  folded layer of the re-laid weights and biases, re-laid back to three axes, is the grouped layer.
-/
import proofs.«131578_j36971078484018_2_alg».proof.Proof.Spec
import Idealize.ShloMosaic.Lib.ValueIdx
import Idealize.ShloMosaic.Lib.Pipeline.Value
import Idealize.ShloMosaic.Lib.ValueLayout

noncomputable section

namespace Cert.GroupLinear

open Idealize.ShloMosaic Idealize.ShloMosaic.ValueIdx
open scoped BigOperators

/-- The folded column of group `g` and output feature `o`: `1024·g + o`, below `16·1024 = 16384`. -/
abbrev foldCol (g : Fin 16) (o : Fin 1024) : Fin 16384 := ⟨1024 * g.val + o.val, by omega⟩

/-- The weights re-laid as [16384, 1024] read, at row `1024·g + o` and column `k`, the entry `(g, o, k)`: both have
    row-major position `(1024·g + o)·1024 + k`. -/
theorem shapeCast_W_apply (W : SW.Idx → EReal) (hW : SW.ShapeCasts SW2) (g : Fin 16) (o : Fin 1024) (k : Fin 1024) :
    shapeCast SW2 W hW (ix2 (foldCol g o) k) = W (ix3 g o k) :=
  shapeCast_apply W hW _ _ (by
    rw [Shape.rowMajor_val_three, Shape.rowMajor_val_two]
    show (g.val * 1024 + o.val) * 1024 + k.val = (1024 * g.val + o.val) * 1024 + k.val
    omega)

/-- The biases re-laid as one row [1, 16384] read, at column `1024·g + o`, the entry `(g, o)`: both have row-major
    position `1024·g + o`. -/
theorem shapeCast_b_apply (b : SB.Idx → EReal) (hb : SB.ShapeCasts SB2) (g : Fin 16) (o : Fin 1024) :
    shapeCast SB2 b hb (ix2 (0 : Fin 1) (foldCol g o)) = b (ix2 g o) :=
  shapeCast_apply b hb _ _ (by
    rw [Shape.rowMajor_val_two, Shape.rowMajor_val_two]
    show g.val * 1024 + o.val = 0 * 16384 + (1024 * g.val + o.val)
    omega)

/-- A [4096, 16384] array re-laid as [4096, 16, 1024] reads, at `(r, g, o)`, the entry `(r, 1024·g + o)`: both have
    row-major position `16384·r + 1024·g + o`. -/
theorem shapeCast_out_apply (y : SO2.Idx → EReal) (hO : SO2.ShapeCasts SO) (r : Fin 4096) (g : Fin 16) (o : Fin 1024) :
    shapeCast SO y hO (ix3 r g o) = y (ix2 r (foldCol g o)) :=
  shapeCast_apply y hO _ _ (by
    rw [Shape.rowMajor_val_two, Shape.rowMajor_val_three]
    show r.val * 16384 + (1024 * g.val + o.val) = (r.val * 16 + g.val) * 1024 + o.val
    omega)

/-- Folding the group axis into the columns and unfolding it again: the folded layer of the row-major re-laid weights
    and biases, re-laid back to three axes, is the grouped layer. Row-major position 1024·g + o of the folded axis is the
    pair (g, o). -/
theorem unfold_flat (x : SX.Idx → EReal) (W : SW.Idx → EReal) (b : SB.Idx → EReal)
    (hW : SW.ShapeCasts SW2) (hb : SB.ShapeCasts SB2) (hO : SO2.ShapeCasts SO) :
    shapeCast SO (flatLinear x (shapeCast SW2 W hW) (shapeCast SB2 b hb)) hO = groupLinear x W b := by
  funext i
  obtain ⟨r, g, o, rfl⟩ : ∃ (r : Fin 4096) (g : Fin 16) (o : Fin 1024), i = ix3 r g o :=
    ⟨⟨(i 0).val, (i 0).isLt⟩, ⟨(i 1).val, (i 1).isLt⟩, ⟨(i 2).val, (i 2).isLt⟩, by
      funext a; match a with | ⟨0, _⟩ => rfl | ⟨1, _⟩ => rfl | ⟨2, _⟩ => rfl⟩
  -- the outer re-laying reads the folded layer at (r, 1024·g + o)
  refine (shapeCast_out_apply _ hO r g o).trans ?_
  rw [groupLinear_ix3, flatLinear_ix2]
  -- both layers written out: the same sum and bias once the re-laid weights and biases are read at their entries
  show (∑ k : Fin 1024, x (ix2 r k) * shapeCast SW2 W hW (ix2 (foldCol g o) k))
      + shapeCast SB2 b hb (ix2 (0 : Fin 1) (foldCol g o))
    = (∑ k : Fin 1024, x (ix2 r k) * W (ix3 g o k)) + b (ix2 g o)
  rw [shapeCast_b_apply b hb g o]
  exact congrArg (· + b (ix2 g o)) (Finset.sum_congr rfl fun k _ => by rw [shapeCast_W_apply W hW g o k])

end Cert.GroupLinear

end
-- ==== Proof.Final.lean ====
/-
  From the blocks to the result array, and the run.

  Every grid point writes its output block back, and the 8 × 8 blocks of 512 × 2048 tile the [4096, 16384] array: entry
  (r, c) lies in the block of the point with inner coordinate r / 512 and outer coordinate c / 2048. Since block `t` of
  the array ends as block `t` of the folded layer, the whole array ends as the folded layer of x, the folded weights
  and the bias row. The program then re-lays that array as [4096, 16, 1024]; the folded weights and the bias row are
  themselves the row-major re-layings of W and b, and x is untouched; so the result is the grouped layer of the
  three arguments (the folding law of the specification).
-/
import proofs.«131578_j36971078484018_2_alg».proof.Proof.Point
import proofs.«131578_j36971078484018_2_alg».proof.Proof.Unfold
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Blocks Cert.KernelIdeal.Point
open Idealize.ShloMosaic.ValueIdx Cert.GroupLinear
open scoped BigOperators

variable (m : (ℓ : Loc nD τ sig) → Buf (Elt Ideal) ℓ) (ρ : Dev nD → PrngReg)

/-- The folded layer of the arrays as the region finds them. -/
abbrev flat (c : Dev nD) : SO2.Idx → EReal := flatLinear (X m c) (W2 m c) (B2 m c)

/-- The output block after point `t` as a function of the block's index. -/
theorem out_fun (c : Dev nD) (t : Fin cfg0.N) :
    (outsAt0 m c t.val t.isLt).1 = fun y : S512x2048.Idx =>
      flatLinearAt (X m c) (W2 m c) (B2 m c) (xrow t.val ⟨(y 0).val, (y 0).isLt⟩) (wcol t.val ⟨(y 1).val, (y 1).isLt⟩) := by
  funext y
  obtain ⟨p, q, rfl⟩ : ∃ (p : Fin 512) (q : Fin 2048), y = ix2 p q :=
    ⟨⟨(y 0).val, (y 0).isLt⟩, ⟨(y 1).val, (y 1).isLt⟩, by funext a; match a with | ⟨0, _⟩ => rfl | ⟨1, _⟩ => rfl⟩
  exact out_eq m c t p q

/-- WHAT POINT `t` WRITES BACK is block `t` of the folded layer: the block's entry (p, q) sits at row
    512·(t % 8) + p and column 2048·(t / 8) + q of the array. -/
theorem flushed_eq (c : Dev nD) (t : Fin cfg0.N) :
    (dats m 0 c).flushed 3 t = ((cfg0.win 3).blk t).view.read (Elt Ideal) (flat m c) := by
  show (cfg0.win 3).cut (grid0.coords t) ((dats m 0 c).after 3 t) = _
  rw [after0_3, out_fun]
  obtain ⟨-, -, -, -, -, -, e0, e1⟩ := idx_facts t
  funext j
  show flatLinearAt (X m c) (W2 m c) (B2 m c) (xrow t.val ⟨(j 0).val, _⟩) (wcol t.val ⟨(j 1).val, _⟩)
    = flatLinear (X m c) (W2 m c) (B2 m c) (((cfg0.win 3).blk t).view.emb j)
  unfold flatLinear
  refine congrArg₂ (flatLinearAt (X m c) (W2 m c) (B2 m c)) (Fin.ext ?_) (Fin.ext ?_)
  · show 512 * (t.val % 8) + (j 0).val = win0_3.index t (0 : Fin 2) * 512 + 1 * (j 0).val
    omega
  · show 2048 * (t.val / 8 % 8) + (j 1).val = win0_3.index t (1 : Fin 2) * 2048 + 1 * (j 1).val
    omega

/-- An index of the array is in point `t`'s block iff each coordinate is in the block's range on its axis. -/
theorem mem_blk (t : Fin cfg0.N) (i : S4096x16384.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v2).slice (win0_3.rect t)).set ↔ _
  rw [View.set_slice_whole, Rect.mem_set_unit]
  exact Iff.rfl

/-- Every pair of block indices is some grid point's. -/
theorem idx_onto : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

/-- THE BLOCKS TILE THE ARRAY: entry (r, c) is in the block with indices (r / 512, c / 2048). -/
theorem cover (i : S4096x16384.Idx) :
    ∃ t : Fin cfg0.N, (cfg0.win 3).flush t = true ∧ i ∈ ((cfg0.win 3).blk t).view.set := by
  have hi0 : (i 0).val < 4096 := (i 0).isLt
  have hi1 : (i 1).val < 16384 := (i 1).isLt
  obtain ⟨t, ht⟩ := idx_onto ⟨(i 0).val / 512, by omega⟩ ⟨(i 1).val / 2048, by omega⟩
  have q0 : win0_3.index t (0 : Fin 2) = (i 0).val / 512 := congrFun ht 0
  have q1 : win0_3.index t (1 : Fin 2) = (i 1).val / 2048 := congrFun ht 1
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 2048 ≤ (i 1).val ∧ (i 1).val < win0_3.index t (1 : Fin 2) * 2048 + 2048
    omega

/-- THE ARRAY after the region: the folded layer of the arrays as the region finds them. -/
theorem final (c : Dev nD) : (dats m 0 c).arrAt 3 cfg0.N = flat m c :=
  (dats m 0 c).arrAt_eq_of_cover 3 (flat m c) (fun t _ => flushed_eq m c t) cover

/-- The folded weights as the region finds them are W re-laid row-major. -/
theorem W2_eq (c : Dev nD) :
    W2 m c = shapeCast S16384x1024 (m ((c : Thread nD τ).loc main_arg1)) shapeCasts_S16x1024x1024_S16384x1024 := by
  show StableHlo.after hostOps0 (fun b => m (c, b)) (Proc.devRef .tc main_v0) = _
  after_results
  rfl

/-- The bias row as the region finds it is b re-laid row-major. -/
theorem B2_eq (c : Dev nD) :
    B2 m c = shapeCast S1x16384 (m ((c : Thread nD τ).loc main_arg2)) shapeCasts_S16x1024_S1x16384 := by
  show StableHlo.after hostOps0 (fun b => m (c, b)) (Proc.devRef .tc main_v1) = _
  after_results
  rfl

/-- What the program's last line leaves in the result: the array after the region, re-laid as [4096, 16, 1024]. -/
theorem tail_eq (c : Dev nD) :
    Pipeline.afterTail₀ cfgs (dats m) 0 (V0 m) [hostOps1] c main_v3
      = shapeCast S4096x16x1024 (flat m c) shapeCasts_S4096x16384_S4096x16x1024 := by
  have hw : Pipeline.withArrays (cfgs 0).spec c (V0 m c) (fun w => (dats m 0 c).arrAt w (cfgs 0).N)
      (Proc.devRef .tc main_v2) = flat m c :=
    (Pipeline.withArrays_arr spec0 launch0.win.arr_inj c _ _ 3).trans (final m c)
  unfold Pipeline.afterTail₀
  show StableHlo.after hostOps1 _ (Proc.devRef .tc main_v3) = _
  after_results
  rw [hw]
  rfl

/-- THE RESULT: the grouped layer of the three arguments as launched. -/
theorem result_eq (c : Dev nD) :
    Pipeline.afterTail₀ cfgs (dats m) 0 (V0 m) [hostOps1] c main_v3
      = groupLinear (m ((c : Thread nD τ).loc main_arg0)) (m ((c : Thread nD τ).loc main_arg1))
          (m ((c : Thread nD τ).loc main_arg2)) := by
  rw [tail_eq m c]
  show shapeCast S4096x16x1024 (flatLinear (X m c) (W2 m c) (B2 m c)) shapeCasts_S4096x16384_S4096x16x1024 = _
  rw [W2_eq m c, B2_eq m c, show X m c = m ((c : Thread nD τ).loc main_arg0) from V_main_arg0 m c]
  exact unfold_flat _ _ _ _ _ _

/-- THE RUN, READ: every weakly fair execution of the program terminates with the result array at the grouped layer of
    the arguments, and the arguments unchanged. -/
theorem run : θ_run defs (onTc (τ := τ) (main (F := Ideal))) ⟨m, fun _ => 0, ρ⟩ fun r => ∀ c : Dev nD,
      r.2.mem ((c.tc : Thread nD τ).loc main_v3)
        = groupLinear (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Final

end
-- ==== Proof.RefSide.lean ====
/-
  The reference, read index by index: a contraction of the columns of x with the last axis of W, plus the bias
  broadcast over the rows, is the grouped layer

    out[r, g, o] = Σ_k x[r, k] · W[g, o, k] + b[g, o].
-/
import proofs.«131578_j36971078484018_2_alg».proof.Proof.Spec
import proofs.«131578_j36971078484018_2_alg».proof.Proof.Gen.ReferenceIdeal.Read

noncomputable section

namespace Cert.GroupLinear

open Idealize.ShloMosaic Idealize.ShloMosaic.ValueIdx
open Cert.ReferenceIdeal.Read
open scoped BigOperators

/-- The contraction reads its left operand, at result index `(r, g, o)` and summation index `k`, at `(r, k)`. -/
theorem lidx_ix3 (r : Fin 4096) (g : Fin 16) (o : Fin 1024) (k : Fin 1024) :
    lidx_main_v0 (ix3 r g o) k = ix2 r k :=
  funext fun a => Fin.ext (by match a with | ⟨0, _⟩ => rfl | ⟨1, _⟩ => rfl)

/-- The contraction reads its right operand, at result index `(r, g, o)` and summation index `k`, at `(g, o, k)`. -/
theorem ridx_ix3 (r : Fin 4096) (g : Fin 16) (o : Fin 1024) (k : Fin 1024) :
    ridx_main_v0 (ix3 r g o) k = ix3 g o k :=
  funext fun a => Fin.ext (by match a with | ⟨0, _⟩ => rfl | ⟨1, _⟩ => rfl | ⟨2, _⟩ => rfl)

/-- The two broadcasts read the bias, at result index `(r, g, o)`, at `(g, o)`. -/
theorem bidx_ix3 (r : Fin 4096) (g : Fin 16) (o : Fin 1024) :
    idx_main_v1 (idx_main_v2 (ix3 r g o)) = ix2 g o :=
  funext fun a => Fin.ext (by match a with | ⟨0, _⟩ => rfl | ⟨1, _⟩ => rfl)

/-- The reference — one contraction of x's columns with W's last axis, plus the bias broadcast over the rows — is the
    grouped layer, index by index. -/
theorem reference_eq (x : SX.Idx → EReal) (W : SW.Idx → EReal) (b : SB.Idx → EReal) :
    Cert.ReferenceIdeal.Read.val_main_v3 (F := Ideal) x W b = groupLinear x W b := by
  funext i
  obtain ⟨r, g, o, rfl⟩ : ∃ (r : Fin 4096) (g : Fin 16) (o : Fin 1024), i = ix3 r g o :=
    ⟨⟨(i 0).val, (i 0).isLt⟩, ⟨(i 1).val, (i 1).isLt⟩, ⟨(i 2).val, (i 2).isLt⟩, by
      funext a; match a with | ⟨0, _⟩ => rfl | ⟨1, _⟩ => rfl | ⟨2, _⟩ => rfl⟩
  rw [val_main_v3_apply, val_main_v0_apply, val_main_v2_apply, val_main_v1_apply, groupLinear_ix3]
  simp only [lidx_ix3, ridx_ix3, bidx_ix3]
  rfl

end Cert.GroupLinear

end
-- ==== Proof.lean ====
/-
  The proof of `Cert.Claim` for a grouped linear layer,

      out[r, g, o] = Σ_k x[r, k] · W[g, o, k] + b[g, o]      (x : [4096, 1024], W : [16, 1024, 1024], b : [16, 1024]).

  The kernel folds the group axis into the columns (column 1024·g + o), computes the folded layer block by block on an
  8 × 8 grid — a 512 × 2048 output block per point, the block of 2048 folded weight rows narrowed to bf16 once per outer
  coordinate and kept in a scratch across the eight inner points — and re-lays the [4096, 16384] result as
  [4096, 16, 1024]. The reference contracts x's columns with W's last axis in one product and adds the bias broadcast
  over the rows. Over the extended reals a change of float format is the identity, so both compute the same finite sum
  of products plus the same bias, index by index; no law beyond reading both sides at an index is needed, and the
  precondition is not used.

  The three frames come from the programs' runs; the kernel's idealization rewrote nothing, so `preserves` is trivial;
  `algebraic` pairs the kernel's run (the result array at the grouped layer of the arguments) with the reference's
  run (its term read at an index is the grouped layer).
-/
import proofs.«131578_j36971078484018_2_alg».proof.Defs
import proofs.«131578_j36971078484018_2_alg».proof.Proof.Gen.Kernel
import proofs.«131578_j36971078484018_2_alg».proof.Proof.Gen.Kernel.Skeleton
import proofs.«131578_j36971078484018_2_alg».proof.Proof.Gen.Kernel.Launch
import proofs.«131578_j36971078484018_2_alg».proof.Proof.Gen.Kernel.Points
import proofs.«131578_j36971078484018_2_alg».proof.Proof.Gen.Kernel.Frame
import proofs.«131578_j36971078484018_2_alg».proof.Proof.Gen.KernelIdeal
import proofs.«131578_j36971078484018_2_alg».proof.Proof.Gen.KernelIdeal.Skeleton
import proofs.«131578_j36971078484018_2_alg».proof.Proof.Gen.KernelIdeal.Launch
import proofs.«131578_j36971078484018_2_alg».proof.Proof.Gen.KernelIdeal.Points
import proofs.«131578_j36971078484018_2_alg».proof.Proof.Gen.KernelIdeal.Frame
import proofs.«131578_j36971078484018_2_alg».proof.Proof.Gen.ReferenceIdeal
import proofs.«131578_j36971078484018_2_alg».proof.Proof.Gen.ReferenceIdeal.Run
import proofs.«131578_j36971078484018_2_alg».proof.Proof.Gen.ReferenceIdeal.Read
import proofs.«131578_j36971078484018_2_alg».proof.Proof.Gen.Pre_finite_inputs
import proofs.«131578_j36971078484018_2_alg».proof.Proof.Final
import proofs.«131578_j36971078484018_2_alg».proof.Proof.RefSide
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories agreeing on the arguments, both programs end with the grouped layer of the
    arguments in their result: the kernel by its run read block by block, the reference by its term read at an index. -/
theorem algebraic : Cert.algebraic_KernelIdeal_ReferenceIdeal := by
  intro m ρ m' ρ' _ hagree
  refine ⟨fun c => Cert.GroupLinear.groupLinear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.GroupLinear.reference_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
